-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048x2048 : Shape := ⟨3, ![8, 2048, 2048]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8x2048x512 .f32) (main_arg1 : FVec F S8x2048x2048 .f32) (main_arg2 : FVec F S512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S8x2048x512 : Shape := ⟨3, ![8, 2048, 512]⟩
abbrev S8x2048x2048 : Shape := ⟨3, ![8, 2048, 2048]⟩
abbrev S512x512 : Shape := ⟨2, ![512, 512]⟩
abbrev S1x512x2048 : Shape := ⟨3, ![1, 512, 2048]⟩
abbrev S1x2048x512 : Shape := ⟨3, ![1, 2048, 512]⟩
abbrev S1x512x512 : Shape := ⟨3, ![1, 512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S512x512, .f32⟩
  | .hbm, ⟨3, _⟩ => ⟨S512x512, .bf16⟩
  | .hbm, ⟨4, _⟩ => ⟨S8x2048x512, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .bf16⟩
  | .local _ .vmem, ⟨5, _⟩ => ⟨S1x512x512, .f32⟩
  | .local _ .vmem, ⟨6, _⟩ => ⟨S1x512x512, .f32⟩
  | .local _ .vmem, ⟨7, _⟩ => ⟨S2048x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 3 → Nat :=
  let c0_9 : Index := 0#32
  let arg1 : BitVec 32 := BitVec.ofNat 32 (i 1).val
  let c512_i32 : BitVec 32 := 512#32
  let v14 : BitVec 32 := Scalar.muli arg1 c512_i32
  let v15 : BitVec 32 := v14
  let v16 : Index := Scalar.indexCast v15
  let c0_10 : Index := 0#32
  ![0, v16.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S1x512x512 : 0 < S1x512x512.numel
  shapeCasts_S1x512x512_S512x512 : S1x512x512.ShapeCasts S512x512
  natLt_1_32 : 1 < 32
  reduces_S512x512_S512 : S512x512.Reduces [1] S512
  shapeCasts_S512_S512x1 : S512.ShapeCasts S512x1
  broadcasts_S512x1_S512x512 : S512x1.Broadcasts S512x512
  inb_S1x512x512_S1x512x512_0_0_0 : ∀ a, (![0, 0, 0] : Fin 3 → Nat) a + S1x512x512.size a ≤ S1x512x512.size a
  shapeCasts_S512x512_S1x512x512 : S512x512.ShapeCasts S1x512x512
  dot_S512x2048_S2048x512_S512x512_1_0_0_1_n_n_wf : DotDims.WF S512x2048 S2048x512 S512x512 [1] [0] [0] [1] [] []
  dot_S512x512_S512x512_S512x512_1_0_0_1_n_n_wf : DotDims.WF S512x512 S512x512 S512x512 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1x512x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x2048x512.size a
  hwx0_3 : ∀ i : grid0.Coords, EltTy.bits .f32 = 32 ∨ (Rect.block (s := S8x2048x512) S1x512x512.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S512x512 : Shape := ⟨2, ![512, 512]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S512x512, .f32⟩
  | .hbm, ⟨3, _⟩ => ⟨S8x2048x512, .f32⟩
  | .hbm, ⟨4, _⟩ => ⟨S8x2048x512, .f32⟩
  | .hbm, ⟨5, _⟩ => ⟨S_, .f32⟩
  | .hbm, ⟨6, _⟩ => ⟨S8x2048x512, .f32⟩
  | .hbm, ⟨7, _⟩ => ⟨S8x2048x512, .f32⟩
  | .hbm, ⟨8, _⟩ => ⟨S_, .f32⟩
  | .hbm, ⟨9, _⟩ => ⟨S8x2048x512, .f32⟩
  | .hbm, ⟨10, _⟩ => ⟨S8x2048x512, .i1⟩
  | .hbm, ⟨11, _⟩ => ⟨S8x2048x512, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .i1⟩
  | .hbm, ⟨18, _⟩ => ⟨S8x2048x1, .f32⟩
  | .hbm, ⟨19, _⟩ => ⟨S8x2048x512, .f32⟩
  | .hbm, ⟨20, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S8x2048x512 : S_.BroadcastsInDim S8x2048x512 (![] : Fin 0 → Fin S8x2048x512.rank)
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  dot_S8x2048x2048_S8x2048x512_S8x2048x512_2_1_1_2_0_0_wf : DotDims.WF S8x2048x2048 S8x2048x512 S8x2048x512 [2] [1] [1] [2] [0] [0]
  dot_S8x2048x512_S512x512_S8x2048x512_2_0_01_1_n_n_wf : DotDims.WF S8x2048x512 S512x512 S8x2048x512 [2] [0] [0, 1] [1] [] []

variable [Facts₀]

def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf

class Facts : Prop extends Facts₀ where

variable [Facts]
-- ==== Proof.Spec.lean ====
/-
  The specification: the graph-convolution layer as ONE function of its three argument arrays, index by index,
  on the extended reals.

  For node features x[b, m, f], dense adjacency a[b, n, m] and weights w[f, d] the layer's result at (b, n, d) is
      max (∑_f (∑_m a[b,n,m] · x[b,m,f]) · w[f,d]) 0  ·  live[b,n],
  where live[b,n] is 1 when node n of graph b has at least one nonzero feature and 0 otherwise (a padded node's
  row is cleared). The count of nonzero features is itself a sum of zeros and ones, and "at least one" is the
  comparison of that sum with zero.

  One entry depends on four things only — the node's adjacency row, the graph's features, one weight column and
  the node's own feature row — and `entry` states it over exactly those, so that the tiled computation and the
  whole-array computation are compared entry by entry with nothing else in sight.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The number a one-bit truth value denotes: 0 or 1. -/
def ind (b : BitVec 1) : EReal := ((b.toNat : ℝ) : EReal)

/-- Reading a truth value as an unsigned integer gives that number. -/
theorem uitofp_eq_ind (b : BitVec 1) : FloatOps.uitofp (F := Ideal) .f32 b = ind b := rfl

/-- Widening a truth value to 32 bits with zeros and reading the word as a SIGNED integer gives the same number:
    the widened word is 0 or 1, never negative. -/
theorem sitofp_setWidth_eq_ind (b : BitVec 1) : FloatOps.sitofp (F := Ideal) .f32 (b.setWidth 32) = ind b := by
  show (((b.setWidth 32).toInt : ℝ) : EReal) = ((b.toNat : ℝ) : EReal)
  have h : ∀ b : BitVec 1, (b.setWidth 32).toInt = (b.toNat : ℤ) := by decide
  rw [h b, Int.cast_natCast]

/-- "Not equal" has one meaning on the extended reals, whether asked as an ordered or an unordered comparison:
    nothing is unordered there. -/
theorem cmp_une_eq_one (p q : EReal) : Ideal.cmp .une p q = Ideal.cmp .one p q := rfl

/-- One entry of the layer, from the node's adjacency row `arow`, the graph's features `xg`, the weight column
    `wcol` and the node's own feature row `xrow`:
    max (∑_f (∑_m arow m · xg m f) · wcol f) 0, cleared when the node has no nonzero feature. -/
def entry (arow : Fin 2048 → EReal) (xg : Fin 2048 → Fin 512 → EReal) (wcol : Fin 512 → EReal)
    (xrow : Fin 512 → EReal) : EReal :=
  max (∑ f : Fin 512, (∑ m : Fin 2048, arow m * xg m f) * wcol f) 0
    * ind (Ideal.cmp .ogt (∑ f : Fin 512, ind (Ideal.cmp .one (xrow f) 0)) 0)

/-- The layer's result array: entry (b, n, d) from row (b, n) of the adjacency, graph b's features, column d of
    the weights and row (b, n) of the features. -/
def layer (x : (⟨3, ![8, 2048, 512]⟩ : Shape).Idx → EReal) (a : (⟨3, ![8, 2048, 2048]⟩ : Shape).Idx → EReal)
    (w : (⟨2, ![512, 512]⟩ : Shape).Idx → EReal) : (⟨3, ![8, 2048, 512]⟩ : Shape).Idx → EReal :=
  fun i => entry (fun m => a (ix3 (i 0) (i 1) m)) (fun m f => x (ix3 (i 0) m f)) (fun f => w (ix2 f (i 2)))
    (fun f => x (ix3 (i 0) (i 1) f))

end Cert.Spec

end
-- ==== Proof.RefIs.lean ====
/-
  The reference computes the specification.

  Read one operation at a time at an index (b, n, d), the reference's result is
      max (∑_f (∑_m a[b,n,m] · x[b,m,f]) · w[f,d]) 0 · [ (0 + ∑_f [x[b,n,f] ≠ 0]) > 0 ],
  the two contractions as sums over the contracted axis, the two broadcasts of a scalar zero as zero, the
  broadcasts along kept axes as the identity on those coordinates. This is `Spec.layer` once the initial zero of
  the sum is dropped and the indices are written by their coordinates.
-/
import proofs.«120761_j35467839930437_2_alg».proof.Proof.RefRead
import proofs.«120761_j35467839930437_2_alg».proof.Proof.Spec

noncomputable section

open scoped BigOperators

namespace Cert.ReferenceIdeal.RefValue

open Cert.ReferenceIdeal Cert.ReferenceIdeal.ReadP
open Idealize.ShloMosaic Idealize.ShloMosaic.ValueIdx Cert.Spec

/-- The reference's result, as a function of its three arguments, is the specified layer. -/
theorem ref_eq (x : (⟨S8x2048x512, .f32⟩ : BufTy).Contents (Elt Ideal)) (a : (⟨S8x2048x2048, .f32⟩ : BufTy).Contents (Elt Ideal))
    (w : (⟨S512x512, .f32⟩ : BufTy).Contents (Elt Ideal)) :
    val_main_v12 (F := Ideal) x a w = layer x a w := by
  funext i
  refine (val_main_v12_apply x a w i).trans ?_
  unfold layer entry
  refine congrArg₂ (· * ·) ?_ ?_
  · -- the rectified product
    refine (val_main_v2_apply x a w i).trans ?_
    refine congrArg₂ max ?_ ?_
    · refine (val_main_v1_apply x a w i).trans ?_
      refine Finset.sum_congr rfl fun f _ => congrArg₂ (· * ·) ?_ ?_
      · refine (val_main_v0_apply x a (lidx_main_v1 i f)).trans ?_
        refine Finset.sum_congr rfl fun m _ => congrArg₂ (· * ·) (congrArg a ?_) (congrArg x ?_)
        · funext c; match c with | ⟨0, _⟩ => rfl | ⟨1, _⟩ => rfl | ⟨2, _⟩ => rfl
        · funext c; match c with | ⟨0, _⟩ => rfl | ⟨1, _⟩ => rfl | ⟨2, _⟩ => rfl
      · refine congrArg w ?_
        funext c; match c with | ⟨0, _⟩ => rfl | ⟨1, _⟩ => rfl
    · exact (val_main_call0_v0_apply i).trans ((val_main_call0_cst_apply _).trans Ideal.ofBits_zero_f32)
  · -- the padding mask of node (b, n)
    refine (val_main_v11_apply x i).trans ?_
    refine (val_main_v10_apply x _).trans ?_
    refine (uitofp_eq_ind _).trans ?_
    refine congrArg ind ?_
    refine (val_main_v9_apply x _).trans ?_
    refine congrArg₂ (Ideal.cmp .ogt) ?_ ?_
    · refine (val_main_v7_apply x _).trans ?_
      refine (val_main_v6_apply x _).trans ?_
      refine (congrArg₂ (· + ·) ((val_main_cst_0_apply _).trans Ideal.ofBits_zero_f32)
        (Finset.sum_congr rfl fun k _ => ?_)).trans (zero_add _)
      refine (val_main_v5_apply x _).trans ?_
      refine (uitofp_eq_ind _).trans (congrArg ind ?_)
      refine (val_main_v4_apply x _).trans ?_
      refine congrArg₂ (Ideal.cmp .one) (congrArg x ?_) ?_
      · funext c; match c with | ⟨0, _⟩ => rfl | ⟨1, _⟩ => rfl | ⟨2, _⟩ => rfl
      · exact (val_main_v3_apply _).trans ((val_main_cst_apply _).trans Ideal.ofBits_zero_f32)
    · exact (val_main_v8_apply _).trans ((val_main_cst_1_apply _).trans Ideal.ofBits_zero_f32)

end Cert.ReferenceIdeal.RefValue

end
-- ==== Proof.Pieces.lean ====
/-
  What one grid step leaves behind, as values of the blocks it was handed.

  A step at grid point (b, it) is handed a 512-row tile of graph b's adjacency, the whole feature block of graph b,
  the weight block, and a scratch copy of the features. At the first tile of a graph (it = 0) it refreshes the
  scratch copy from the feature block and then computes from the refreshed copy; at the other tiles it computes
  from the copy the step before left. In both cases the output tile is ONE function (the kernel's arithmetic,
  `k0_pay2`) of: the adjacency tile, the scratch copy, the weight block, and rows it·512 … it·512+511 of the
  feature block (the rows whose padding mask the tile needs).
-/
import proofs.«120761_j35467839930437_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rows of the feature block a tile's padding mask is computed from: 512 rows starting at row it·512. -/
abbrev maskRows (i : grid0.Coords) (x1 : Vec F S1x2048x512 .f32) : Vec F S1x512x512 .f32 :=
  View.ld x1 (Rect.unit (s := S1x2048x512) (k0_off1 i) S1x512x512.size (Facts₀.k0_off1_inb i))

/-- First tile of a graph: the scratch copy is refreshed to the feature block (cast to the matmul's input format). -/
theorem scratch_first (c : Dev nD) (i : grid0.Coords) (a2 : Memref sig .tc .vmem S1x512x2048 .f32) (h2 : a2.IsWhole) (a3 : Memref sig .tc .vmem S1x2048x512 .f32) (h3 : a3.IsWhole) (a4 : Memref sig .tc .vmem S512x512 .bf16) (h4 : a4.IsWhole) (a5 : Memref sig .tc .vmem S1x512x512 .f32) (h5 : a5.IsWhole) (a6 : Memref sig .tc .vmem S2048x512 .bf16) (h6 : a6.IsWhole) (hc : cond0_0 i)
    (x0 : Vec F S1x512x2048 .f32) (x1 : Vec F S1x2048x512 .f32) (x2 : Vec F S512x512 .bf16) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x2048x512) hz3]

/-- First tile of a graph: the output tile is the kernel's arithmetic over the REFRESHED scratch copy. -/
theorem out_first (c : Dev nD) (i : grid0.Coords) (a2 : Memref sig .tc .vmem S1x512x2048 .f32) (h2 : a2.IsWhole) (a3 : Memref sig .tc .vmem S1x2048x512 .f32) (h3 : a3.IsWhole) (a4 : Memref sig .tc .vmem S512x512 .bf16) (h4 : a4.IsWhole) (a5 : Memref sig .tc .vmem S1x512x512 .f32) (h5 : a5.IsWhole) (a6 : Memref sig .tc .vmem S2048x512 .bf16) (h6 : a6.IsWhole) (hc : cond0_0 i)
    (x0 : Vec F S1x512x2048 .f32) (x1 : Vec F S1x2048x512 .f32) (x2 : Vec F S512x512 .bf16) :
    out0_A_3 c i a2 h2 a3 h3 a4 h4 a5 h5 a6 h6 hc x0 x1 x2 = k0_pay2 x0 (k0_pay1 x1) x2 (maskRows i x1) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3, View.readCov_unit_zero (S := S2048x512) _ hz2]
  simp only [View.readAt_eq_ld, h2.read_unread, h3.read_unread, h4.read_unread, View.ld_unit_zero (S := S1x512x2048) hz3,
    View.ld_unit_zero (S := S1x2048x512) hz3, View.ld_unit_zero (S := S512x512) hz2]
  rfl

/-- Any other tile: the output tile is the kernel's arithmetic over the scratch copy the step before left. -/
theorem out_later (c : Dev nD) (i : grid0.Coords) (a2 : Memref sig .tc .vmem S1x512x2048 .f32) (h2 : a2.IsWhole) (a3 : Memref sig .tc .vmem S1x2048x512 .f32) (h3 : a3.IsWhole) (a4 : Memref sig .tc .vmem S512x512 .bf16) (h4 : a4.IsWhole) (a5 : Memref sig .tc .vmem S1x512x512 .f32) (h5 : a5.IsWhole) (a6 : Memref sig .tc .vmem S2048x512 .bf16) (h6 : a6.IsWhole) (hc : ¬cond0_0 i)
    (x0 : Vec F S1x512x2048 .f32) (x1 : Vec F S1x2048x512 .f32) (x2 : Vec F S512x512 .bf16) (xs : Vec F S2048x512 .bf16) :
    out0_B_3 c i a2 h2 a3 h3 a4 h4 a5 h5 a6 h6 hc x0 x1 x2 xs = k0_pay2 x0 xs x2 (maskRows i x1) := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz3]
  simp only [View.readAt_eq_ld, h2.read_unread, h3.read_unread, h4.read_unread, h6.read_unread, View.ld_unit_zero (S := S1x512x2048) hz3,
    View.ld_unit_zero (S := S2048x512) hz2, View.ld_unit_zero (S := S512x512) hz2]

end Cert.KernelIdeal.Pieces

end
-- ==== Proof.LibColumns.lean ====
/-
  Column vectors read at an index: the two layout steps of a row statistic kept as a column (a sum over the last
  axis with the axis kept), for any element type.

  * a vector of length a viewed as an a × 1 column reads, at (r, 0), the vector at r;
  * an a × 1 column spread over b columns reads, at (r, d), the column at (r, 0).

  Both are statements about positions only: a reshape keeps the row-major position, and a broadcast reads a
  unit axis at its one coordinate.
-/
import Idealize.ShloMosaic.Lib.Pipeline.Value
import Idealize.ShloMosaic.Lib.ValueIdx

noncomputable section

namespace Cert.LibColumns

open Idealize.ShloMosaic Idealize.ShloMosaic.ValueIdx

variable {α : Type}

/-- A length-a vector viewed as an a × 1 column reads, at (r, u), the vector at r (u is the unit axis's one coordinate):
    both positions are r in row-major order. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- An a × 1 column spread over b columns reads, at (r, d), the column's entry of row r. -/
theorem broadcastTo_a1_ab_apply {a b : ℕ} (v : (⟨2, ![a, 1]⟩ : Shape).Idx → α)
    (h : (⟨2, ![a, 1]⟩ : Shape).Broadcasts ⟨2, ![a, b]⟩) (r : Fin a) (d : Fin b) :
    broadcastTo ⟨2, ![a, b]⟩ v h (ix2 r d) = v (ix2 r (0 : Fin 1)) := by
  refine broadcastTo_apply v h (ix2 r d) (ix2 r (0 : Fin 1)) fun ax => ?_
  match ax with
  | ⟨0, _⟩ =>
    show r.val = if a = 1 then 0 else r.val
    split
    · have := r.isLt; omega
    · rfl
  | ⟨1, _⟩ => rfl

end Cert.LibColumns

end
-- ==== Proof.PayloadAt.lean ====
/-
  The kernel's arithmetic read at one entry, on the extended reals.

  A tile's output at (row r, column d) is, with A the adjacency tile, X the scratch copy of the features, W the
  weight block and R the tile's own feature rows:
      max (∑_f (∑_m A[r,m] · X[m,f]) · W[f,d]) 0 · [ (∑_f [R[r,f] ≠ 0]) > 0 ].
  The two matrix products into a zero accumulator are plain sums of products; a change of float format is the
  identity; the lane sum of the zero/one indicators is a sum over the 512 features; the column of per-row masks,
  kept as a 512 × 1 column and spread over the columns, reads the mask of row r everywhere in row r.
  So the entry is `Spec.entry` of row r of A, of X, of column d of W and of row r of R.
-/
import proofs.«120761_j35467839930437_2_alg».proof.Proof.Gen.KernelIdeal.Skeleton
import proofs.«120761_j35467839930437_2_alg».proof.Proof.Spec
import proofs.«120761_j35467839930437_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayloadAt

open Cert.KernelIdeal Cert.KernelIdeal.Gen
open Idealize.ShloMosaic Idealize.ShloMosaic.ValueIdx Cert.Spec Cert.LibColumns

/-! ## The two matrix products at an entry -/

theorem agg_lhs0 (j : S512x512.Idx) (q : dot_S512x2048_S2048x512_S512x512_1_0_0_1_n_n.contr.Idx) : (dot_S512x2048_S2048x512_S512x512_1_0_0_1_n_n.lhsIdx j q 0).val = (j 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem agg_lhs1 (j : S512x512.Idx) (q : dot_S512x2048_S2048x512_S512x512_1_0_0_1_n_n.contr.Idx) : (dot_S512x2048_S2048x512_S512x512_1_0_0_1_n_n.lhsIdx j q 1).val = (q ⟨0, by decide⟩).val :=
  dot_S512x2048_S2048x512_S512x512_1_0_0_1_n_n.lhsIdx_val_of_single rfl j q
theorem agg_rhs0 (j : S512x512.Idx) (q : dot_S512x2048_S2048x512_S512x512_1_0_0_1_n_n.contr.Idx) : (dot_S512x2048_S2048x512_S512x512_1_0_0_1_n_n.rhsIdx j q 0).val = (q ⟨0, by decide⟩).val :=
  dot_S512x2048_S2048x512_S512x512_1_0_0_1_n_n.rhsIdx_val_of_single rfl j q
theorem agg_rhs1 (j : S512x512.Idx) (q : dot_S512x2048_S2048x512_S512x512_1_0_0_1_n_n.contr.Idx) : (dot_S512x2048_S2048x512_S512x512_1_0_0_1_n_n.rhsIdx j q 1).val = (j 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The aggregation product of a tile, [512, 2048] · [2048, 512] into zeros, at (r, d): ∑_m l[r,m] · g[m,d]. -/
theorem agg_apply (l : FVec Ideal S512x2048 .bf16) (g : FVec Ideal S2048x512 .bf16) (r d : Fin 512) :
    matmul dot_S512x2048_S2048x512_S512x512_1_0_0_1_n_n none l g (constant S512x512 .f32 0x00000000#32) (ix2 r d)
      = ∑ k : Fin 2048, l (ix2 r k) * g (ix2 k d) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 r d) ((contrEquiv1 dot_S512x2048_S2048x512_S512x512_1_0_0_1_n_n 2048 rfl rfl).symm k) = ix2 r k := funext fun a => Fin.ext (by
    match a with
    | ⟨0, _⟩ => exact agg_lhs0 _ _
    | ⟨1, _⟩ => exact (agg_lhs1 _ _).trans hk)
  have er : dot_S512x2048_S2048x512_S512x512_1_0_0_1_n_n.rhsIdx (ix2 r d) ((contrEquiv1 dot_S512x2048_S2048x512_S512x512_1_0_0_1_n_n 2048 rfl rfl).symm k) = ix2 k d := funext fun a => Fin.ext (by
    match a with
    | ⟨0, _⟩ => exact (agg_rhs0 _ _).trans hk
    | ⟨1, _⟩ => exact agg_rhs1 _ _)
  rw [el, er]

theorem lin_lhs0 (j : S512x512.Idx) (q : dot_S512x512_S512x512_S512x512_1_0_0_1_n_n.contr.Idx) : (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lin_lhs1 (j : S512x512.Idx) (q : dot_S512x512_S512x512_S512x512_1_0_0_1_n_n.contr.Idx) : (dot_S512x512_S512x512_S512x512_1_0_0_1_n_n.lhsIdx j q 1).val = (q ⟨0, by decide⟩).val :=
  dot_S512x512_S512x512_S512x512_1_0_0_1_n_n.lhsIdx_val_of_single rfl j q
theorem lin_rhs0 (j : S512x512.Idx) (q : dot_S512x512_S512x512_S512x512_1_0_0_1_n_n.contr.Idx) : (dot_S512x512_S512x512_S512x512_1_0_0_1_n_n.rhsIdx j q 0).val = (q ⟨0, by decide⟩).val :=
  dot_S512x512_S512x512_S512x512_1_0_0_1_n_n.rhsIdx_val_of_single rfl j q
theorem lin_rhs1 (j : S512x512.Idx) (q : dot_S512x512_S512x512_S512x512_1_0_0_1_n_n.contr.Idx) : (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The feature transform of a tile, [512, 512] · [512, 512] into zeros, at (r, d): ∑_f l[r,f] · g[f,d]. -/
theorem lin_apply (l : FVec Ideal S512x512 .bf16) (g : FVec Ideal S512x512 .bf16) (r d : Fin 512) :
    matmul dot_S512x512_S512x512_S512x512_1_0_0_1_n_n none l g (constant S512x512 .f32 0x00000000#32) (ix2 r d)
      = ∑ k : Fin 512, l (ix2 r k) * g (ix2 k d) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r d) ((contrEquiv1 dot_S512x512_S512x512_S512x512_1_0_0_1_n_n 512 rfl rfl).symm k) = ix2 r k := funext fun a => Fin.ext (by
    match a with
    | ⟨0, _⟩ => exact lin_lhs0 _ _
    | ⟨1, _⟩ => exact (lin_lhs1 _ _).trans hk)
  have er : dot_S512x512_S512x512_S512x512_1_0_0_1_n_n.rhsIdx (ix2 r d) ((contrEquiv1 dot_S512x512_S512x512_S512x512_1_0_0_1_n_n 512 rfl rfl).symm k) = ix2 k d := funext fun a => Fin.ext (by
    match a with
    | ⟨0, _⟩ => exact (lin_rhs0 _ _).trans hk
    | ⟨1, _⟩ => exact lin_rhs1 _ _)
  rw [el, er]

/-! ## The padding mask of a row -/

/-- The lane sum of a [512, 512] array of extended reals over its second axis, from zero, at row r. -/
theorem rowsum_apply (src : FVec Ideal S512x512 .f32) (hacc : (0x00000000#32 : BitVec 32) = 0x00000000#32) (r : Fin 512) :
    multiReduction (F := Ideal) .add [1] S512 src 0x00000000#32 Facts₀.reduces_S512x512_S512 (.inl rfl) hacc (ix1 r)
      = ∑ k : Fin 512, src (ix2 r k) := by
  refine (Ideal.multiReduction_add_single src 0x00000000#32 Facts₀.reduces_S512x512_S512 (.inl rfl) hacc (ix1 r)).trans ?_
  refine Finset.sum_congr rfl fun k _ => congrArg src (funext fun a => Fin.ext ?_)
  match a with
  | ⟨0, _⟩ => rfl
  | ⟨1, _⟩ => rfl

/-! ## The scratch copy and the output tile at an entry -/

/-- The scratch copy of a feature block, at (m, f), is the block's entry (0, m, f): the change of float format is
    the identity and the reshape only drops the block's unit axis. -/
theorem pay1_apply (v34 : Vec Ideal S1x2048x512 .f32) (m : Fin 2048) (f : Fin 512) :
    k0_pay1 (F := Ideal) v34 (ix2 m f) = v34 (ix3 (0 : Fin 1) m f) := by
  unfold k0_pay1
  refine (congrFun (shapeCast_self _ _) _).trans ?_
  exact shapeCast_1ab_ab_apply (α := EReal) v34 _ m f

/-- The output tile at (r, d): `Spec.entry` of row r of the adjacency tile, the scratch copy, column d of the
    weight block and row r of the tile's own feature rows. -/
theorem pay2_apply (v3 : Vec Ideal S1x512x2048 .f32) (v6 : Vec Ideal S2048x512 .bf16) (v9 : Vec Ideal S512x512 .bf16)
    (v17 : Vec Ideal S1x512x512 .f32) (u : Fin 1) (r d : Fin 512) :
    k0_pay2 (F := Ideal) v3 v6 v9 v17 (ix3 u r d)
      = entry (fun m => v3 (ix3 (0 : Fin 1) r m)) (fun m f => v6 (ix2 m f)) (fun f => v9 (ix2 f d))
          (fun f => v17 (ix3 (0 : Fin 1) r f)) := by
  unfold k0_pay2
  refine (shapeCast_ab_1ab_apply (α := EReal) _ _ u r d).trans ?_
  refine (mulf_apply _ _ _).trans ?_
  unfold entry
  refine congrArg₂ (· * ·) ?_ ?_
  · -- the rectified product
    refine (maximumf_apply _ _ _).trans ?_
    refine congrArg₂ max ?_ ?_
    · refine (lin_apply _ _ r d).trans ?_
      refine Finset.sum_congr rfl fun f _ => congrArg₂ (· * ·) ?_ ?_
      · refine (agg_apply _ _ r f).trans ?_
        refine Finset.sum_congr rfl fun m _ => congrArg (· * _) ?_
        exact shapeCast_1ab_ab_apply (α := EReal) v3 _ r m
      · exact congrFun (shapeCast_self v9 _) _
    · exact Ideal.ofBits_zero_f32
  · -- the padding mask of row r
    refine (broadcastTo_a1_ab_apply (α := EReal) _ _ r d).trans ?_
    refine (sitofp_setWidth_eq_ind _).trans ?_
    refine congrArg ind ?_
    refine congrArg₂ (Ideal.cmp .ogt) ?_ ?_
    · refine (shapeCast_a_a1_apply (α := EReal) _ _ r (0 : Fin 1)).trans ?_
      refine (rowsum_apply _ rfl r).trans ?_
      refine Finset.sum_congr rfl fun k _ => ?_
      refine (sitofp_setWidth_eq_ind _).trans ?_
      refine congrArg ind ?_
      refine congrArg₂ (Ideal.cmp .one) ?_ ?_
      · exact shapeCast_1ab_ab_apply (α := EReal) v17 _ r k
      · exact Ideal.ofBits_zero_f32
    · exact Ideal.ofBits_zero_f32

/-- An output tile's entry against the whole-array layer: when row r of the adjacency tile is row (b, n) of the
    adjacency, the scratch copy is graph b's features, column d of the weight block is column d of the weights
    and row r of the tile's feature rows is row (b, n) of the features, the tile's entry (r, d) is the layer's
    entry (b, n, d). -/
theorem tile_entry (X : (⟨3, ![8, 2048, 512]⟩ : Shape).Idx → EReal) (A : (⟨3, ![8, 2048, 2048]⟩ : Shape).Idx → EReal)
    (W : (⟨2, ![512, 512]⟩ : Shape).Idx → EReal)
    (v3 : Vec Ideal S1x512x2048 .f32) (v6 : Vec Ideal S2048x512 .bf16) (v9 : Vec Ideal S512x512 .bf16)
    (v17 : Vec Ideal S1x512x512 .f32) (b : Fin 8) (n : Fin 2048) (u : Fin 1) (r d : Fin 512)
    (h3 : ∀ k : Fin 2048, v3 (ix3 (0 : Fin 1) r k) = A (ix3 b n k))
    (h6 : ∀ (k : Fin 2048) (f : Fin 512), v6 (ix2 k f) = X (ix3 b k f))
    (h9 : ∀ f : Fin 512, v9 (ix2 f d) = W (ix2 f d))
    (h17 : ∀ f : Fin 512, v17 (ix3 (0 : Fin 1) r f) = X (ix3 b n f)) :
    k0_pay2 (F := Ideal) v3 v6 v9 v17 (ix3 u r d) = layer X A W (ix3 b n d) := by
  refine (pay2_apply v3 v6 v9 v17 u r d).trans ?_
  show _ = entry (fun m => A (ix3 b n m)) (fun m f => X (ix3 b m f)) (fun f => W (ix2 f d)) (fun f => X (ix3 b n f))
  exact congr (congr (congr (congrArg entry (funext h3)) (funext fun k => funext (h6 k))) (funext h9)) (funext h17)

end Cert.KernelIdeal.PayloadAt

end
-- ==== Proof.BlockReads.lean ====
/-
  Where the blocks of one grid step sit in the argument arrays.

  The grid has 8 · 4 points, point t = 4·b + it working on graph b = t / 4 and row tile it = t % 4. At point t
    * the adjacency tile is rows it·512 … it·512+511 of graph b's adjacency, all 2048 columns;
    * the feature block is graph b's whole feature matrix;
    * the weight block is the whole weight matrix (already cast to the matmul's input format before the launch);
    * the rows the padding mask is computed from are rows it·512 … it·512+511 of the feature block;
    * the output tile is rows it·512 … it·512+511 of graph b's result.
  Every statement is "block coordinate = block index × block size + coordinate inside the block", with the block
  indices decided once over the 32 points.
-/
import proofs.«120761_j35467839930437_2_alg».proof.Proof.Gen.KernelIdeal.Frame
import proofs.«120761_j35467839930437_2_alg».proof.Proof.Pieces
import Idealize.ShloMosaic.Lib.Pipeline.Value
import Idealize.ShloMosaic.Lib.ValueIdx

noncomputable section

namespace Cert.KernelIdeal.BlockReads

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The block indices of the four windows at point t, and the row-tile coordinate the body sees: graph t / 4, row
    tile t % 4 (decided over the 32 points). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ (grid0.coords t 1).val = t.val % 4 :=
  (by decide +kernel : ∀ t : Fin grid0.N, _)

/-- The adjacency tile at point t: entry (r, k) is the adjacency of graph b at row n = it·512 + r, column k. -/
theorem adj_tile (c : Dev nD) (t : Fin cfg0.N) (u : Fin 1) (r : Fin 512) (k : Fin 2048) (b : Fin 8) (n : Fin 2048)
    (hb : b.val = t.val / 4) (hn : n.val = t.val % 4 * 512 + r.val) :
    (iblk m c 0 t : Vec F S1x512x2048 .f32) (ix3 u r k) = V m c main_arg1 (ix3 b n k) := by
  obtain ⟨e0, e1, e2, -⟩ := idx_facts t
  unfold iblk
  rw [View.read_apply]
  show V m c main_arg1 _ = V m c main_arg1 _
  refine congrArg _ (funext fun a => Fin.ext ?_)
  match a with
  | ⟨0, _⟩ => show win0_0.index t (0 : Fin 3) * 1 + 1 * u.val = b.val; have := u.isLt; omega
  | ⟨1, _⟩ => show win0_0.index t (1 : Fin 3) * 512 + 1 * r.val = n.val; omega
  | ⟨2, _⟩ => show win0_0.index t (2 : Fin 3) * 2048 + 1 * k.val = k.val; omega

/-- The feature block at point t: entry (k, f) is the feature f of node k of graph b. -/
theorem feat_block (c : Dev nD) (t : Fin cfg0.N) (u : Fin 1) (k : Fin 2048) (f : Fin 512) (b : Fin 8)
    (hb : b.val = t.val / 4) :
    (iblk m c 1 t : Vec F S1x2048x512 .f32) (ix3 u k f) = V m c main_arg0 (ix3 b k f) := by
  obtain ⟨-, -, -, e0, e1, e2, -⟩ := idx_facts t
  unfold iblk
  rw [View.read_apply]
  show V m c main_arg0 _ = V m c main_arg0 _
  refine congrArg _ (funext fun a => Fin.ext ?_)
  match a with
  | ⟨0, _⟩ => show win0_1.index t (0 : Fin 3) * 1 + 1 * u.val = b.val; have := u.isLt; omega
  | ⟨1, _⟩ => show win0_1.index t (1 : Fin 3) * 2048 + 1 * k.val = k.val; omega
  | ⟨2, _⟩ => show win0_1.index t (2 : Fin 3) * 512 + 1 * f.val = f.val; omega

/-- The weight block at every point is the whole (cast) weight matrix. -/
theorem weight_block (c : Dev nD) (t : Fin cfg0.N) (f d : Fin 512) :
    (iblk m c 2 t : Vec F S512x512 .bf16) (ix2 f d) = V m c main_v0 (ix2 f d) := by
  obtain ⟨-, -, -, -, -, -, e0, e1, -⟩ := idx_facts t
  unfold iblk
  rw [View.read_apply]
  show V m c main_v0 _ = V m c main_v0 _
  refine congrArg _ (funext fun a => Fin.ext ?_)
  match a with
  | ⟨0, _⟩ => show win0_2.index t (0 : Fin 2) * 512 + 1 * f.val = f.val; omega
  | ⟨1, _⟩ => show win0_2.index t (1 : Fin 2) * 512 + 1 * d.val = d.val; omega

/-- The rows a tile's padding mask is computed from, inside ANY feature block: row r of them is row it·512 + r of the block. -/
theorem maskRows_apply (i : grid0.Coords) (x1 : Vec F S1x2048x512 .f32) (u : Fin 1) (r f : Fin 512) (n : Fin 2048)
    (hn : n.val = 512 * (i 1).val + r.val) :
    Pieces.maskRows i x1 (ix3 u r f) = x1 (ix3 (0 : Fin 1) n f) := by
  show x1 _ = x1 _
  refine congrArg x1 (funext fun a => Fin.ext ?_)
  have ho := k0_off1_eq i
  match a with
  | ⟨0, _⟩ => show k0_off1 i 0 + 1 * u.val = 0; rw [ho]; have := u.isLt; show 0 + 1 * u.val = 0; omega
  | ⟨1, _⟩ => show k0_off1 i 1 + 1 * r.val = n.val; rw [ho]; show 512 * (i 1).val + 1 * r.val = n.val; omega
  | ⟨2, _⟩ => show k0_off1 i 2 + 1 * f.val = f.val; rw [ho]; show 0 + 1 * f.val = f.val; omega

/-- Where an entry of the output tile at point t sits in the result array: graph b, row n = it·512 + r, column d. -/
theorem out_tile_emb (t : Fin cfg0.N) (u : Fin 1) (r d : Fin 512) (b : Fin 8) (n : Fin 2048)
    (hb : b.val = t.val / 4) (hn : n.val = t.val % 4 * 512 + r.val) :
    ((cfg0.win 3).blk t).view.emb (ix3 u r d) = ix3 b n d := by
  obtain ⟨-, -, -, -, -, -, -, -, e0, e1, e2, -⟩ := idx_facts t
  refine funext fun a => Fin.ext ?_
  match a with
  | ⟨0, _⟩ => show win0_3.index t (0 : Fin 3) * 1 + 1 * u.val = b.val; have := u.isLt; omega
  | ⟨1, _⟩ => show win0_3.index t (1 : Fin 3) * 512 + 1 * r.val = n.val; omega
  | ⟨2, _⟩ => show win0_3.index t (2 : Fin 3) * 512 + 1 * d.val = d.val; omega

end Cert.KernelIdeal.BlockReads

end
-- ==== Proof.Whole.lean ====
/-
  From tiles to the whole result array.

  The run visits the 32 grid points in order; point t = 4·b + it writes back the output tile of graph b, row tile it.
  Three facts make the array after the run the specified layer:
    1. THE SCRATCH COPY. After any point of graph b the scratch holds graph b's features: the first tile of the
       graph (it = 0) writes them there, and the three tiles that follow leave the scratch alone — and the point
       before a later tile is a point of the same graph. (Induction over the points.)
    2. ONE TILE. So at every point the tile written back is, entry by entry, the layer's entry at the tile's
       place in the array: row r of the tile is row it·512 + r of graph b.
    3. THE COVER. Every index (b, n, d) of the result lies in the tile of point 4·b + n / 512.
-/
import proofs.«120761_j35467839930437_2_alg».proof.Proof.Gen.KernelIdeal.Value
import proofs.«120761_j35467839930437_2_alg».proof.Proof.Pieces
import proofs.«120761_j35467839930437_2_alg».proof.Proof.PayloadAt
import proofs.«120761_j35467839930437_2_alg».proof.Proof.BlockReads
import proofs.«120761_j35467839930437_2_alg».proof.Proof.Spec
import Idealize.ShloMosaic.Lib.Pipeline.Value
import Idealize.ShloMosaic.Lib.StableHlo.Run

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

/-! ## 1. The scratch copy -/

/-- After the first tile of a graph the scratch holds that graph's features. -/
theorem scratch_at_first (c : Dev nD) (t : Fin cfg0.N) (h0 : t.val % 4 = 0) (b : Fin 8) (hb : b.val = t.val / 4)
    (k : Fin 2048) (f : Fin 512) :
    (outsAt0 m c t.val t.isLt).2 (ix2 k f) = V m c main_arg0 (ix3 b k f) := by
  rw [outsAt0_A m c t h0]
  dsimp only
  rw [Pieces.scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
  exact (PayloadAt.pay1_apply _ k f).trans (BlockReads.feat_block m c t 0 k f b hb)

/-- After ANY point of graph b the scratch holds graph b's features. -/
theorem scratch_eq (c : Dev nD) : ∀ (n : ℕ) (h : n < cfg0.N) (b : Fin 8), b.val = n / 4 →
    ∀ (k : Fin 2048) (f : Fin 512), (outsAt0 m c n h).2 (ix2 k f) = V m c main_arg0 (ix3 b k f) := by
  intro n
  induction n using Nat.strong_induction_on with
  | _ n ih =>
    intro h b hb k f
    by_cases h0 : n % 4 = 0
    · exact scratch_at_first m c ⟨n, h⟩ h0 b hb k f
    · -- a later tile of the graph: the scratch is what the point before — a point of the same graph — left
      rw [outsAt0_B m c ⟨n, h⟩ h0]
      dsimp only
      unfold sout0_B_0
      exact ih (n - 1) (by omega) _ b (by omega) k f

/-! ## 2. One tile -/

/-- A tile whose every entry is the layer's entry at its place is the layer read through the tile's block. -/
theorem tile_eq (c : Dev nD) (t : Fin cfg0.N) (T : Vec Ideal S1x512x512 .f32)
    (hT : ∀ (u : Fin 1) (r d : Fin 512) (b : Fin 8) (n : Fin 2048), b.val = t.val / 4 → n.val = t.val % 4 * 512 + r.val →
      T (ix3 u r d) = layer (V m c main_arg0) (V m c main_arg1) (V m c main_v0) (ix3 b n d)) :
    (cfg0.win 3).cut (grid0.coords t) T
      = ((cfg0.win 3).blk t).view.read (Elt Ideal) (layer (V m c main_arg0) (V m c main_arg1) (V m c main_v0)) := by
  have hN : t.val < 32 := lt_of_lt_of_eq t.isLt N_0
  refine funext fun (y : S1x512x512.Idx) => ?_
  obtain ⟨u, r, d, rfl⟩ : ∃ (u : Fin 1) (r d : Fin 512), y = ix3 u r d := ⟨y 0, y 1, y 2, eq_ix3 y⟩
  have hr : r.val < 512 := r.isLt
  rw [View.read_apply]
  show T (ix3 u r d) = layer _ _ _ (((cfg0.win 3).blk t).view.emb (ix3 u r d))
  rw [BlockReads.out_tile_emb t u r d ⟨t.val / 4, by omega⟩ ⟨t.val % 4 * 512 + r.val, by omega⟩ rfl rfl]
  exact hT u r d _ _ rfl rfl

/-- WHAT POINT t WRITES BACK is the layer (of the arrays as the launch finds them) read through the tile's block. -/
theorem flushed_eq (c : Dev nD) (t : Fin cfg0.N) :
    (dats m 0 c).flushed 3 t
      = ((cfg0.win 3).blk t).view.read (Elt Ideal) (layer (V m c main_arg0) (V m c main_arg1) (V m c main_v0)) := by
  have hN : t.val < 32 := lt_of_lt_of_eq t.isLt N_0
  have hrow : (grid0.coords t 1).val = t.val % 4 := (BlockReads.idx_facts t).2.2.2.2.2.2.2.2.2.2.2
  by_cases h0 : t.val % 4 = 0
  · refine (Value.flushed3_A m c t h0).trans ?_
    rw [Pieces.out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
    refine tile_eq m c t _ fun u r d b n hb hn => ?_
    exact PayloadAt.tile_entry _ _ _ _ _ _ _ b n u r d
      (fun k => BlockReads.adj_tile m c t 0 r k b n hb hn)
      (fun k f => (PayloadAt.pay1_apply _ k f).trans (BlockReads.feat_block m c t 0 k f b hb))
      (fun f => BlockReads.weight_block m c t f d)
      (fun f => (BlockReads.maskRows_apply (grid0.coords t) _ 0 r f n (by omega)).trans (BlockReads.feat_block m c t 0 n f b hb))
  · refine (Value.flushed3_B m c t h0).trans ?_
    rw [Pieces.out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2]
    refine tile_eq m c t _ fun u r d b n hb hn => ?_
    exact PayloadAt.tile_entry _ _ _ _ _ _ _ b n u r d
      (fun k => BlockReads.adj_tile m c t 0 r k b n hb hn)
      (fun k f => scratch_eq m c (t.val - 1) _ b (by omega) k f)
      (fun f => BlockReads.weight_block m c t f d)
      (fun f => (BlockReads.maskRows_apply (grid0.coords t) _ 0 r f n (by omega)).trans (BlockReads.feat_block m c t 0 n f b hb))

/-! ## 3. The cover, and the array after the run -/

/-- Every index of the result lies in the tile of the point of its graph and row tile. -/
theorem cover (i : S8x2048x512.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 512 := (i 2).isLt
  have hN : cfg0.N = 32 := N_0
  obtain ⟨t, ht⟩ : ∃ t : Fin cfg0.N, t.val = (i 0).val * 4 + (i 1).val / 512 := ⟨⟨_, by rw [hN]; omega⟩, rfl⟩
  obtain ⟨-, -, -, -, -, -, -, -, e0, e1, e2, -⟩ := BlockReads.idx_facts t
  refine ⟨t, flush0_3 t, ?_⟩
  show i ∈ ((View.whole main_v1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- The weights as the launch finds them: the cast to the matmul's input format is the identity on the extended reals. -/
theorem V_weights (c : Dev nD) :
    (V m c main_v0 : S512x512.Idx → EReal) = m ((c : Thread nD τ).loc main_arg2) := by
  dsimp only [Gen.V, Gen.hostOps0]
  after_results
  rfl

/-- THE ARRAY AFTER THE RUN is the specified layer of the three arguments. -/
theorem final (c : Dev nD) :
    (dats m 0 c).arrAt 3 cfg0.N
      = layer (m ((c : Thread nD τ).loc main_arg0)) (m ((c : Thread nD τ).loc main_arg1)) (m ((c : Thread nD τ).loc main_arg2)) := by
  have h := (dats m 0 c).arrAt_eq_of_cover 3 (layer (V m c main_arg0) (V m c main_arg1) (V m c main_v0))
    (fun t _ => flushed_eq m c t) cover
  rw [V_main_arg0 m c, V_main_arg1 m c, V_weights m c] at h
  exact h

/-- The kernel's run, read: the result array at the specified layer, the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The graph-convolution layer, tiled over (graph, row tile), computes what the whole-array formula computes.

  For node features x[b, m, f], dense adjacency a[b, n, m] and weights w[f, d] both programs end with
      out[b, n, d] = max (∑_f (∑_m a[b,n,m] · x[b,m,f]) · w[f,d]) 0 · live[b,n],
  live[b,n] = 1 when node n of graph b has a nonzero feature and 0 otherwise, as extended reals.

  The tiled program keeps the grouping of the two sums: a tile's rows are whole rows of a · x · w, so no sum is
  split and no law of the extended reals beyond "a sum is a sum of the same terms" is used; in particular the
  finiteness of the inputs is never opened. What has to be seen is only that the blocks a grid step is handed are
  the right rows of the right graph (BlockReads), that the scratch copy of the features a later tile reads is
  still the copy of ITS graph (Whole, by induction over the grid points), and that the two ways of writing the
  padding mask agree on the extended reals: an ordered and an unordered "not equal" are one comparison there, and
  a zero/one word reads as the same number signed or unsigned (Spec).

  The three frames are the generated ones (the reference's: its run with the result dropped); nothing was rewritten
  when the kernel was idealized, so there is nothing to preserve.
-/
import proofs.«120761_j35467839930437_2_alg».proof.Defs
import proofs.«120761_j35467839930437_2_alg».proof.Proof.Gen.Kernel
import proofs.«120761_j35467839930437_2_alg».proof.Proof.Gen.Kernel.Skeleton
import proofs.«120761_j35467839930437_2_alg».proof.Proof.Gen.Kernel.Launch
import proofs.«120761_j35467839930437_2_alg».proof.Proof.Gen.Kernel.Points
import proofs.«120761_j35467839930437_2_alg».proof.Proof.Gen.Kernel.Frame
import proofs.«120761_j35467839930437_2_alg».proof.Proof.Gen.KernelIdeal
import proofs.«120761_j35467839930437_2_alg».proof.Proof.Gen.KernelIdeal.Skeleton
import proofs.«120761_j35467839930437_2_alg».proof.Proof.Gen.KernelIdeal.Launch
import proofs.«120761_j35467839930437_2_alg».proof.Proof.Gen.KernelIdeal.Points
import proofs.«120761_j35467839930437_2_alg».proof.Proof.Gen.KernelIdeal.Frame
import proofs.«120761_j35467839930437_2_alg».proof.Proof.Gen.ReferenceIdeal
import proofs.«120761_j35467839930437_2_alg».proof.Proof.Gen.Pre_finite_inputs
import proofs.«120761_j35467839930437_2_alg».proof.Proof.Gen.KernelIdeal.Value
import proofs.«120761_j35467839930437_2_alg».proof.Proof.RefRun
import proofs.«120761_j35467839930437_2_alg».proof.Proof.RefRead
import proofs.«120761_j35467839930437_2_alg».proof.Proof.Spec
import proofs.«120761_j35467839930437_2_alg».proof.Proof.RefIs
import proofs.«120761_j35467839930437_2_alg».proof.Proof.Whole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- On the extended reals the tiled kernel's result array ends at the specified layer of its arguments (Whole.run),
    and the reference's at its own term (its run), which is the same layer (RefIs.ref_eq) of arguments that agree. -/
theorem algebraic : Cert.algebraic_KernelIdeal_ReferenceIdeal := by
  intro m ρ m' ρ' _ hagree
  refine ⟨fun c => Cert.Spec.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v12_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
